-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x11008 : Shape := ⟨3, ![1, 512, 11008]⟩
abbrev S4096x11008 : Shape := ⟨2, ![4096, 11008]⟩
abbrev S4096 : Shape := ⟨1, ![4096]⟩
abbrev S_ : Shape := ⟨0, ![]⟩

class Facts : Prop where
  bcast_S_S1x512x11008 : S_.BroadcastsInDim S1x512x11008 (![] : Fin 0 → Fin S1x512x11008.rank)
  reducesTo_S1x512x11008_S_d0_1_2 : S1x512x11008.ReducesTo [0, 1, 2] S_
  h_S_ : 0 < S_.numel
  bcast_S_S4096x11008 : S_.BroadcastsInDim S4096x11008 (![] : Fin 0 → Fin S4096x11008.rank)
  reducesTo_S4096x11008_S_d0_1 : S4096x11008.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S1x512x11008 .f32) (main_arg1 : FVec F S4096x11008 .f32) (main_arg2 : FVec F S4096 .f32) : IVec S_ 1 :=
  let main_v0 : FVec F S1x512x11008 .f32 := Host.absf main_arg0
  let main_cst : FVec F S_ .f32 := constant S_ .f32 0x7F800000#32
  let main_v1 : FVec F S1x512x11008 .f32 := broadcastInDim S1x512x11008 ![] bcast_S_S1x512x11008 main_cst
  let main_v2 : IVec S1x512x11008 1 := cmpf .olt main_v0 main_v1
  let main_c : IVec S_ 1 := constantI S_ 1 1#1
  let main_v3 : IVec S_ 1 := (fun x v => Host.reduce IntOp.andi x v reducesTo_S1x512x11008_S_d0_1_2 h_S_) main_v2 main_c
  let main_v4 : FVec F S4096x11008 .f32 := Host.absf main_arg1
  let main_cst_0 : FVec F S_ .f32 := constant S_ .f32 0x7F800000#32
  let main_v5 : FVec F S4096x11008 .f32 := broadcastInDim S4096x11008 ![] bcast_S_S4096x11008 main_cst_0
  let main_v6 : IVec S4096x11008 1 := cmpf .olt main_v4 main_v5
  let main_c_1 : IVec S_ 1 := constantI S_ 1 1#1
  let main_v7 : IVec S_ 1 := (fun x v => Host.reduce IntOp.andi x v reducesTo_S4096x11008_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S1x512x11008 : Shape := ⟨3, ![1, 512, 11008]⟩
abbrev S4096x11008 : Shape := ⟨2, ![4096, 11008]⟩
abbrev S4096 : Shape := ⟨1, ![4096]⟩
abbrev S512x11008 : Shape := ⟨2, ![512, 11008]⟩
abbrev S1x4096 : Shape := ⟨2, ![1, 4096]⟩
abbrev S512x4096 : Shape := ⟨2, ![512, 4096]⟩
abbrev S256x11008 : Shape := ⟨2, ![256, 11008]⟩
abbrev S1x256 : Shape := ⟨2, ![1, 256]⟩
abbrev S512x256 : Shape := ⟨2, ![512, 256]⟩
abbrev S256x256 : Shape := ⟨2, ![256, 256]⟩
abbrev S256x4x64 : Shape := ⟨3, ![256, 4, 64]⟩
abbrev S256x4 : Shape := ⟨2, ![256, 4]⟩
abbrev S256x4x1 : Shape := ⟨3, ![256, 4, 1]⟩
abbrev S1x512x4096 : Shape := ⟨3, ![1, 512, 4096]⟩

abbrev nBuf : Space → Nat
  | .hbm => 8
  | .vmem => 7
  | .smem => 0
  | _ => 0

abbrev bufTy : (tb : Table) → Fin (tcTables nBuf tb) → BufTy
  | .hbm, ⟨0, _⟩ => ⟨S1x512x11008, .f32⟩
  | .hbm, ⟨1, _⟩ => ⟨S4096x11008, .f32⟩
  | .hbm, ⟨2, _⟩ => ⟨S4096, .f32⟩
  | .hbm, ⟨3, _⟩ => ⟨S512x11008, .f32⟩
  | .hbm, ⟨4, _⟩ => ⟨S512x11008, .bf16⟩
  | .hbm, ⟨5, _⟩ => ⟨S1x4096, .f32⟩
  | .hbm, ⟨6, _⟩ => ⟨S512x4096, .f32⟩
  | .hbm, ⟨7, _⟩ => ⟨S1x512x4096, .f32⟩
  | .local _ .vmem, ⟨0, _⟩ => ⟨S512x11008, .bf16⟩
  | .local _ .vmem, ⟨1, _⟩ => ⟨S256x11008, .f32⟩
  | .local _ .vmem, ⟨2, _⟩ => ⟨S256x11008, .f32⟩
  | .local _ .vmem, ⟨3, _⟩ => ⟨S1x256, .f32⟩
  | .local _ .vmem, ⟨4, _⟩ => ⟨S1x256, .f32⟩
  | .local _ .vmem, ⟨5, _⟩ => ⟨S512x256, .f32⟩
  | .local _ .vmem, ⟨6, _⟩ => ⟨S512x256, .f32⟩
  | _, _ => ⟨S1x512x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c43_i32 : BitVec 32 := 43#32
  let v1 : BitVec 32 := Scalar.addi c0_i32 c43_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c256_i32 : BitVec 32 := 256#32
  let v8 : BitVec 32 := Scalar.muli arg5 c256_i32
  v8
def k0_off1 (k0_t1 : Fin k0_t1_loop.trips) : Fin 2 → Nat :=
  let c0_4 : Index := 0#32
  let c0_i32 : BitVec 32 := 0#32
  let c1_i32 : BitVec 32 := 1#32
  let arg5 : BitVec 32 := Scf.iv c0_i32 c1_i32 k0_t1
  let c256_i32 : BitVec 32 := 256#32
  let v8 : BitVec 32 := Scalar.muli arg5 c256_i32
  let v9 : BitVec 32 := v8
  let v10 : Index := Scalar.indexCast v9
  ![0, v10.toNat]
def k0_off2 (k0_t1 : Fin k0_t1_loop.trips) : Fin 2 → Nat :=
  let c0_5 : Index := 0#32
  let c0_i32 : BitVec 32 := 0#32
  let c1_i32 : BitVec 32 := 1#32
  let arg5 : BitVec 32 := Scf.iv c0_i32 c1_i32 k0_t1
  let c256_i32 : BitVec 32 := 256#32
  let v8 : BitVec 32 := Scalar.muli arg5 c256_i32
  let v9 : BitVec 32 := v8
  let v12 : Index := Scalar.indexCast v9
  ![0, v12.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x11008 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x512x11008_S512x11008 : S1x512x11008.ShapeCasts S512x11008
  bitsLt_bf16_f32 : FTy.bits .bf16 < FTy.bits .f32
  shapeCasts_S4096_S1x4096 : S4096.ShapeCasts S1x4096
  h_S256x256 : 0 < S256x256.numel
  h_S512x256 : 0 < S512x256.numel
  shapeCasts_S512x256_S512x256 : S512x256.ShapeCasts S512x256
  shapeCasts_S256x256_S256x4x64 : S256x256.ShapeCasts S256x4x64
  reduces_S256x4x64_S256x4 : S256x4x64.Reduces [2] S256x4
  shapeCasts_S256x4_S256x4x1 : S256x4.ShapeCasts S256x4x1
  shapeCasts_S256x4x1_S256x4x1 : S256x4x1.ShapeCasts S256x4x1
  broadcasts_S256x4x1_S256x4x64 : S256x4x1.Broadcasts S256x4x64
  shapeCasts_S256x4x64_S256x256 : S256x4x64.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  shapeCasts_S512x4096_S1x512x4096 : S512x4096.ShapeCasts S1x512x4096
  dot_S512x256_S256x256_S512x256_1_1_0_0_n_n_wf : DotDims.WF S512x256 S256x256 S512x256 [1] [1] [0] [0] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x256.size a ≤ S256x11008.size a
  k0_off2_inb : ∀ k0_t1 : Fin k0_t1_loop.trips, ∀ a, (k0_off2 k0_t1) a + S512x256.size a ≤ S512x11008.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x11008.size a ≤ S512x11008.size a
  hwx0_0 : ∀ i : grid0.Coords, EltTy.bits .bf16 = 32 ∨ (Rect.block (s := S512x11008) S512x11008.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x11008.size a ≤ S4096x11008.size a
  hwx0_1 : ∀ i : grid0.Coords, EltTy.bits .f32 = 32 ∨ (Rect.block (s := S4096x11008) S256x11008.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x4096.size a
  hwx0_3 : ∀ i : grid0.Coords, EltTy.bits .f32 = 32 ∨ (Rect.block (s := S512x4096) S512x256.size (cc0_transform_3 i) (hinb0_3 i)).WholeWords (EltTy.packing .f32)

variable [Facts₀]

def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf

abbrev win0_0 : Pipeline.Window sig grid0 :=
  Pipeline.Window.ofSpec (Memref.whole main_v1) S512x11008.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x11008.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x512x11008 : Shape := ⟨3, ![1, 512, 11008]⟩
abbrev S4096x11008 : Shape := ⟨2, ![4096, 11008]⟩
abbrev S4096 : Shape := ⟨1, ![4096]⟩
abbrev S704512x64 : Shape := ⟨2, ![704512, 64]⟩
abbrev S_ : Shape := ⟨0, ![]⟩
abbrev S704512 : Shape := ⟨1, ![704512]⟩
abbrev S704512x1 : Shape := ⟨2, ![704512, 1]⟩
abbrev S1x512x4096 : Shape := ⟨3, ![1, 512, 4096]⟩
abbrev S1x1x4096 : Shape := ⟨3, ![1, 1, 4096]⟩

abbrev nBuf : Space → Nat
  | .hbm => 42
  | .vmem => 0
  | .smem => 0
  | _ => 0

abbrev bufTy : (tb : Table) → Fin (tcTables nBuf tb) → BufTy
  | .hbm, ⟨0, _⟩ => ⟨S1x512x11008, .f32⟩
  | .hbm, ⟨1, _⟩ => ⟨S4096x11008, .f32⟩
  | .hbm, ⟨2, _⟩ => ⟨S4096, .f32⟩
  | .hbm, ⟨3, _⟩ => ⟨S704512x64, .f32⟩
  | .hbm, ⟨4, _⟩ => ⟨S_, .f32⟩
  | .hbm, ⟨5, _⟩ => ⟨S704512, .f32⟩
  | .hbm, ⟨6, _⟩ => ⟨S704512x1, .f32⟩
  | .hbm, ⟨7, _⟩ => ⟨S_, .f32⟩
  | .hbm, ⟨8, _⟩ => ⟨S704512, .f32⟩
  | .hbm, ⟨9, _⟩ => ⟨S704512x1, .f32⟩
  | .hbm, ⟨10, _⟩ => ⟨S704512x1, .f32⟩
  | .hbm, ⟨11, _⟩ => ⟨S_, .f32⟩
  | .hbm, ⟨12, _⟩ => ⟨S704512x1, .f32⟩
  | .hbm, ⟨13, _⟩ => ⟨S704512x1, .f32⟩
  | .hbm, ⟨14, _⟩ => ⟨S_, .f32⟩
  | .hbm, ⟨15, _⟩ => ⟨S704512x1, .f32⟩
  | .hbm, ⟨16, _⟩ => ⟨S704512x1, .f32⟩
  | .hbm, ⟨17, _⟩ => ⟨S704512x1, .f32⟩
  | .hbm, ⟨18, _⟩ => ⟨S704512x1, .f32⟩
  | .hbm, ⟨19, _⟩ => ⟨S704512x1, .f32⟩
  | .hbm, ⟨20, _⟩ => ⟨S704512x64, .f32⟩
  | .hbm, ⟨21, _⟩ => ⟨S704512x64, .f32⟩
  | .hbm, ⟨22, _⟩ => ⟨S704512x64, .f32⟩
  | .hbm, ⟨23, _⟩ => ⟨S704512x64, .f32⟩
  | .hbm, ⟨24, _⟩ => ⟨S704512x64, .f32⟩
  | .hbm, ⟨25, _⟩ => ⟨S_, .i32⟩
  | .hbm, ⟨26, _⟩ => ⟨S_, .i32⟩
  | .hbm, ⟨27, _⟩ => ⟨S_, .f32⟩
  | .hbm, ⟨28, _⟩ => ⟨S704512x64, .f32⟩
  | .hbm, ⟨29, _⟩ => ⟨S704512x64, .f32⟩
  | .hbm, ⟨30, _⟩ => ⟨S_, .f32⟩
  | .hbm, ⟨31, _⟩ => ⟨S704512x64, .f32⟩
  | .hbm, ⟨32, _⟩ => ⟨S704512x64, .f32⟩
  | .hbm, ⟨33, _⟩ => ⟨S704512x64, .f32⟩
  | .hbm, ⟨34, _⟩ => ⟨S704512x64, .f32⟩
  | .hbm, ⟨35, _⟩ => ⟨S704512x64, .f32⟩
  | .hbm, ⟨36, _⟩ => ⟨S704512x64, .f32⟩
  | .hbm, ⟨37, _⟩ => ⟨S4096x11008, .f32⟩
  | .hbm, ⟨38, _⟩ => ⟨S1x512x4096, .f32⟩
  | .hbm, ⟨39, _⟩ => ⟨S1x1x4096, .f32⟩
  | .hbm, ⟨40, _⟩ => ⟨S1x512x4096, .f32⟩
  | .hbm, ⟨41, _⟩ => ⟨S1x512x4096, .f32⟩
  | _, _ => ⟨S1x512x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_c_3 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  shapeCasts_S4096x11008_S704512x64 : S4096x11008.ShapeCasts S704512x64
  reducesTo_S704512x64_S704512_d1 : S704512x64.ReducesTo [1] S704512
  h_S_ : 0 < S_.numel
  bcast_S704512_S704512x1_0 : S704512.BroadcastsInDim S704512x1 (![0] : Fin 1 → Fin S704512x1.rank)
  bcast_S_S704512x1 : S_.BroadcastsInDim S704512x1 (![] : Fin 0 → Fin S704512x1.rank)
  bcast_S704512x1_S704512x64_0_1 : S704512x1.BroadcastsInDim S704512x64 (![0, 1] : Fin 2 → Fin S704512x64.rank)
  bcast_S_S704512x64 : S_.BroadcastsInDim S704512x64 (![] : Fin 0 → Fin S704512x64.rank)
  shapeCasts_S704512x64_S4096x11008 : S704512x64.ShapeCasts S4096x11008
  bcast_S4096_S1x1x4096_2 : S4096.BroadcastsInDim S1x1x4096 (![2] : Fin 1 → Fin S1x1x4096.rank)
  bcast_S1x1x4096_S1x512x4096_0_1_2 : S1x1x4096.BroadcastsInDim S1x512x4096 (![0, 1, 2] : Fin 3 → Fin S1x512x4096.rank)
  dot_S1x512x11008_S4096x11008_S1x512x4096_2_1_01_0_n_n_wf : DotDims.WF S1x512x11008 S4096x11008 S1x512x4096 [2] [1] [0, 1] [0] [] []

variable [Facts₀]

def dot_S1x512x11008_S4096x11008_S1x512x4096_2_1_01_0_n_n : DotDims S1x512x11008 S4096x11008 S1x512x4096 where
  lhsContracting := [2]
  rhsContracting := [1]
  lhsNonContracting := [0, 1]
  rhsNonContracting := [0]
  lhsBatch := []
  rhsBatch := []
  wf := dot_S1x512x11008_S4096x11008_S1x512x4096_2_1_01_0_n_n_wf

class Facts : Prop extends Facts₀ where

variable [Facts]
-- ==== Proof.QuantScalar.lean ====
/-
  Group-wise affine quantization of a weight matrix, on the extended reals, and the linear layer over it.

  A row of 11008 weights is cut into 172 groups of 64 consecutive columns. A group with minimum `lo` and maximum `hi`
  has the scale `s = max (hi - lo) ε / 15` and the zero point `z = rne (-lo / s)` (`rne`: round to nearest, ties to
  even); a weight `w` of the group is replaced by `(clip (rne (w / s) + z) 0 15 - z) · s`. The layer's result at
  (row `r` of `x`, output feature `n`) is `∑ k, x r k · q n k + bias n`, `q` the replaced weights.

  Two laws join the two programs' spellings of this. The scale is never zero (it is at least `ε / 15 > 0`), so the
  product with the reciprocal `1 / s` is the quotient by `s` on every extended real. And a sum over the 11008 columns is
  the sum, over the 43 stretches of 256 columns, of the stretches' sums: addition of extended reals is commutative and
  associative, so no finiteness is needed.
-/
import Idealize.ShloMosaic.PureOps.Ideal
import Idealize.ShloMosaic.PureOps.Ideal.Laws
import Idealize.ShloMosaic.Lib.ValueIdx

noncomputable section

namespace Cert.Quant

open Idealize.ShloMosaic Idealize.ShloMosaic.ValueIdx

/-- Round to nearest, ties to even, the infinities fixed. -/
def rne (x : EReal) : EReal := Ideal.liftRound Ideal.roundHalfEven x

/-- The smallest range a group is given: the single-precision number nearest 1e-5. -/
def eps : EReal := Ideal.ofBits .f32 0x3727C5AC#32
/-- The largest quantized level, 15. -/
def top : EReal := Ideal.ofBits .f32 0x41700000#32
/-- The smallest quantized level, 0. -/
def bot : EReal := Ideal.ofBits .f32 0x00000000#32

/-- A group's scale from its minimum and maximum. -/
def scale (lo hi : EReal) : EReal := Ideal.div (max (hi - lo) eps) top
/-- A group's zero point. -/
def zeroPoint (lo hi : EReal) : EReal := rne (Ideal.div (-lo) (scale lo hi))
/-- A weight of the group, quantized to a level in [0, 15] and mapped back. -/
def dequant (lo hi w : EReal) : EReal :=
  (min top (max bot (rne (Ideal.div w (scale lo hi)) + zeroPoint lo hi)) - zeroPoint lo hi) * scale lo hi

/-- The same with the reciprocal of the scale taken once and multiplied by, and `-lo` spelt `0 - lo`. -/
def dequantRecip (lo hi w : EReal) : EReal :=
  let s := scale lo hi
  let r := Ideal.div (Ideal.ofBits .f32 0x3F800000#32) s
  let z := rne ((bot - lo) * r)
  (min top (max bot (rne (w * r) + z)) - z) * s

/-- Column `64 g + j` of a row: member `j` of group `g`. -/
def col (g : Fin 172) (j : Fin 64) : Fin 11008 := ⟨64 * g.val + j.val, by have := g.isLt; have := j.isLt; omega⟩
/-- The group a column lies in. -/
def grp (k : Fin 11008) : Fin 172 := ⟨k.val / 64, by have := k.isLt; omega⟩

abbrev SW : Shape := ⟨2, ![4096, 11008]⟩
abbrev SX : Shape := ⟨3, ![1, 512, 11008]⟩
abbrev SB : Shape := ⟨1, ![4096]⟩
abbrev SO : Shape := ⟨3, ![1, 512, 4096]⟩

/-- The minimum of group `g` of row `n` of a matrix of `R` rows of 11008 weights (the fold of `min` from `+∞` over the
    group's 64 members). The number of rows is a parameter so that the same function reads the whole matrix (4096 rows)
    and a block of 256 of its rows. -/
def gmin {R : Nat} (W : (⟨2, ![R, 11008]⟩ : Shape).Idx → EReal) (n : Fin R) (g : Fin 172) : EReal :=
  (Finset.univ : Finset (Fin 64)).fold min (Ideal.ofBits .f32 0x7F800000#32) (fun j => W (ix2 n (col g j)))
/-- The maximum of the group (the fold of `max` from `-∞`). -/
def gmax {R : Nat} (W : (⟨2, ![R, 11008]⟩ : Shape).Idx → EReal) (n : Fin R) (g : Fin 172) : EReal :=
  (Finset.univ : Finset (Fin 64)).fold max (Ideal.ofBits .f32 0xFF800000#32) (fun j => W (ix2 n (col g j)))

/-- The replaced weight at (n, k). -/
def Q {R : Nat} (W : (⟨2, ![R, 11008]⟩ : Shape).Idx → EReal) (n : Fin R) (k : Fin 11008) : EReal :=
  dequant (gmin W n (grp k)) (gmax W n (grp k)) (W (ix2 n k))

/-- A replaced weight depends on its own row only: two matrices that agree on a row have the same replaced weights there. -/
theorem Q_row {R R' : Nat} (W : (⟨2, ![R, 11008]⟩ : Shape).Idx → EReal) (W' : (⟨2, ![R', 11008]⟩ : Shape).Idx → EReal)
    (n : Fin R) (n' : Fin R') (h : ∀ k : Fin 11008, W (ix2 n k) = W' (ix2 n' k)) (k : Fin 11008) : Q W n k = Q W' n' k := by
  unfold Q gmin gmax
  simp only [h]

/-- THE RESULT: the linear layer over the replaced weights. -/
def G (X : SX.Idx → EReal) (W : SW.Idx → EReal) (B : SB.Idx → EReal) : SO.Idx → EReal := fun i =>
  (∑ k : Fin 11008, X (ix3 (i 0) (i 1) k) * Q W (i 2) k) + B (ix1 (i 2))

/-! ## The scale is never zero, so multiplying by its reciprocal divides by it -/

theorem eps_pos : (0 : EReal) < eps := by
  unfold eps; simp [Ideal.ofBits, Ideal.ieee, -EReal.coe_mul]
theorem top_eq : top = ((15 : ℝ) : EReal) := by
  unfold top; simp [Ideal.ofBits, Ideal.ieee, -EReal.coe_mul]; norm_num
theorem bot_eq : bot = 0 := Ideal.ofBits_zero_f32
theorem one_eq : Ideal.ofBits .f32 0x3F800000#32 = (1 : EReal) := by
  simp [Ideal.ofBits, Ideal.ieee, -EReal.coe_mul]; norm_num

theorem scale_pos (lo hi : EReal) : 0 < scale lo hi := by
  unfold scale
  rw [top_eq, Ideal.div_coe (by norm_num : (15 : ℝ) ≠ 0)]
  exact EReal.mul_pos (lt_of_lt_of_le eps_pos (le_max_right _ _)) (by exact_mod_cast (by norm_num : (0 : ℝ) < 1 / 15))

theorem div_of_ne_zero (x : EReal) {y : EReal} (hy : y ≠ 0) : Ideal.div x y = x * y⁻¹ := by
  unfold Ideal.div; rw [if_neg hy]

/-- The two spellings of a group's replaced weight are one function. -/
theorem dequantRecip_eq (lo hi w : EReal) : dequantRecip lo hi w = dequant lo hi w := by
  have hs : scale lo hi ≠ 0 := (scale_pos lo hi).ne'
  unfold dequantRecip dequant zeroPoint
  simp only [div_of_ne_zero _ hs, one_eq, one_mul, bot_eq, zero_sub]

/-! ## A sum over the 11008 columns, stretch by stretch -/

/-- Column `256 c + j`: member `j` of stretch `c`. -/
def scol (c : Fin 43) (j : Fin 256) : Fin 11008 := ⟨256 * c.val + j.val, by have := c.isLt; have := j.isLt; omega⟩

theorem sum_stretches {M : Type*} [AddCommMonoid M] (f : Fin 11008 → M) :
    ∑ k : Fin 11008, f k = ∑ c : Fin 43, ∑ j : Fin 256, f (scol c j) := by
  rw [← Finset.sum_product', Finset.univ_product_univ]
  refine (Fintype.sum_equiv (finProdFinEquiv (m := 43) (n := 256)) _ _ fun p => ?_).symm
  exact congrArg f (Fin.ext (by
    show 256 * p.1.val + p.2.val = p.2.val + 256 * p.1.val
    omega))

end Cert.Quant

end
-- ==== Proof.RefValue.lean ====
/-
  The reference program computes the linear layer over the group-wise replaced weights.

  The reference views the [4096, 11008] weight matrix as [704512, 64]: row 172 n + g of the view is group g of row n of
  the matrix, and its column j is the group's member j, column 64 g + j of the matrix (11008 = 172 · 64). Every
  per-group quantity (minimum, maximum, scale, zero point) lives on a row of the view; the replaced weights are viewed
  back as [4096, 11008], where entry (n, k) comes from row 172 n + k / 64, column k % 64 of the view.
-/
import proofs.«181352_j43654047597182_2_alg».proof.Proof.Gen.ReferenceIdeal.Read
import proofs.«181352_j43654047597182_2_alg».proof.Proof.QuantScalar

noncomputable section

namespace Cert.ReferenceIdeal.RefValue

open Cert.ReferenceIdeal Cert.ReferenceIdeal.Gen Cert.ReferenceIdeal.Read Idealize.ShloMosaic Idealize.ShloMosaic.ValueIdx
open Cert.Quant

/-- The row of the [704512, 64] view that holds group `g` of row `n` of the matrix. -/
def grow (n : Fin 4096) (g : Fin 172) : Fin 704512 := ⟨172 * n.val + g.val, by have := n.isLt; have := g.isLt; omega⟩
/-- A column's place inside its group. -/
def place (k : Fin 11008) : Fin 64 := ⟨k.val % 64, Nat.mod_lt _ (by decide)⟩

theorem col_grp_place (k : Fin 11008) : col (grp k) (place k) = k :=
  Fin.ext (by show 64 * (k.val / 64) + k.val % 64 = k.val; omega)

/-- Entry (172 n + g, j) of the view is entry (n, 64 g + j) of the matrix. -/
theorem view_at (W : (⟨S4096x11008, .f32⟩ : BufTy).Contents (Elt Ideal)) (n : Fin 4096) (g : Fin 172) (j : Fin 64) :
    val_main_v0 (F := Ideal) W (ix2 (grow n g) j) = W (ix2 n (col g j)) := by
  rw [val_main_v0_apply]
  refine congrArg W (funext fun a => Fin.ext ?_)
  have hn := n.isLt; have hg := g.isLt; have hj := j.isLt
  match a with
  | ⟨0, _⟩ => show ((172 * n.val + g.val) * 64 + j.val) / 11008 = n.val; omega
  | ⟨1, _⟩ => show ((172 * n.val + g.val) * 64 + j.val) % 11008 = 64 * g.val + j.val; omega

/-- The view reduces over its columns to one entry per row. -/
theorem rowsReduce : S704512x64.Reduces [1] S704512 := by decide

/-- Row `r` of the reduced vector with member `j` put back is entry (r, j) of the view. -/
theorem lift_row (r : Fin 704512) (j : Fin (S704512x64.size 1)) :
    rowsReduce.lift (ix1 r) j = ix2 r (⟨j.val, j.isLt⟩ : Fin 64) := by
  funext c; apply Fin.ext
  match c with
  | ⟨0, _⟩ => rfl
  | ⟨1, _⟩ => rfl

/-- The reference's minimum over row 172 n + g of the view is the minimum of group `g` of row `n`. -/
theorem min_at (W : (⟨S4096x11008, .f32⟩ : BufTy).Contents (Elt Ideal)) (n : Fin 4096) (g : Fin 172) :
    val_main_v1 (F := Ideal) W (ix1 (grow n g)) = gmin W n g := by
  unfold val_main_v1
  rw [Host.reduce_eq_fold_single FloatOps.minimumf _ _ Facts₀.reducesTo_S704512x64_S704512_d1 rowsReduce Facts₀.h_S_]
  have hf : (val_main_v0 (F := Ideal) W ∘ rowsReduce.lift (ix1 (grow n g))) = fun j : Fin 64 => W (ix2 n (col g j)) :=
    funext fun j => (congrArg (val_main_v0 (F := Ideal) W) (lift_row (grow n g) j)).trans (view_at W n g j)
  exact congrArg (fun f => Finset.fold min (Ideal.ofBits .f32 0x7F800000#32) f (Finset.univ : Finset (Fin 64))) hf

/-- The reference's maximum over row 172 n + g of the view is the maximum of group `g` of row `n`. -/
theorem max_at (W : (⟨S4096x11008, .f32⟩ : BufTy).Contents (Elt Ideal)) (n : Fin 4096) (g : Fin 172) :
    val_main_v3 (F := Ideal) W (ix1 (grow n g)) = gmax W n g := by
  unfold val_main_v3
  rw [Host.reduce_eq_fold_single FloatOps.maximumf _ _ Facts₀.reducesTo_S704512x64_S704512_d1 rowsReduce Facts₀.h_S_]
  have hf : (val_main_v0 (F := Ideal) W ∘ rowsReduce.lift (ix1 (grow n g))) = fun j : Fin 64 => W (ix2 n (col g j)) :=
    funext fun j => (congrArg (val_main_v0 (F := Ideal) W) (lift_row (grow n g) j)).trans (view_at W n g j)
  exact congrArg (fun f => Finset.fold max (Ideal.ofBits .f32 0xFF800000#32) f (Finset.univ : Finset (Fin 64))) hf

/-- The one-column index of a row of the view. -/
abbrev rowIx (r : Fin 704512) : S704512x1.Idx := ix2 r (0 : Fin 1)

theorem min_col (W : (⟨S4096x11008, .f32⟩ : BufTy).Contents (Elt Ideal)) (n : Fin 4096) (g : Fin 172) :
    val_main_v2 (F := Ideal) W (rowIx (grow n g)) = gmin W n g := by
  rw [val_main_v2_apply]
  exact (congrArg (val_main_v1 (F := Ideal) W) (funext fun a => Fin.ext (by match a with | ⟨0, _⟩ => rfl))).trans (min_at W n g)

theorem max_col (W : (⟨S4096x11008, .f32⟩ : BufTy).Contents (Elt Ideal)) (n : Fin 4096) (g : Fin 172) :
    val_main_v4 (F := Ideal) W (rowIx (grow n g)) = gmax W n g := by
  rw [val_main_v4_apply]
  exact (congrArg (val_main_v3 (F := Ideal) W) (funext fun a => Fin.ext (by match a with | ⟨0, _⟩ => rfl))).trans (max_at W n g)

/-- The reference's scale on row 172 n + g of the view is the scale of group `g` of row `n`. -/
theorem scale_at (W : (⟨S4096x11008, .f32⟩ : BufTy).Contents (Elt Ideal)) (n : Fin 4096) (g : Fin 172) :
    val_main_v9 (F := Ideal) W (rowIx (grow n g)) = scale (gmin W n g) (gmax W n g) := by
  rw [val_main_v9_apply, val_main_v7_apply, val_main_v5_apply, max_col, min_col, val_main_v6_apply, val_main_v8_apply,
    val_main_cst_1_apply, val_main_cst_2_apply]
  rfl

/-- The reference's zero point on that row is the group's zero point. -/
theorem zeroPoint_at (W : (⟨S4096x11008, .f32⟩ : BufTy).Contents (Elt Ideal)) (n : Fin 4096) (g : Fin 172) :
    val_main_v12 (F := Ideal) W (rowIx (grow n g)) = zeroPoint (gmin W n g) (gmax W n g) := by
  rw [val_main_v12_apply, val_main_v11_apply, val_main_v10_apply, scale_at, min_col]
  rfl

/-- The clip's bounds: the integers 0 and 15 read as reals are the smallest and the largest level. -/
theorem lower_eq (i : S704512x64.Idx) : val_main_call2_v1 (F := Ideal) i = bot := by
  rw [val_main_call2_v1_apply, val_main_call2_v0_apply, val_main_c_apply, bot_eq]
  show (((0#32 : BitVec 32).toInt : ℝ) : EReal) = 0
  rw [show (0#32 : BitVec 32).toInt = 0 by decide]
  norm_num

theorem upper_eq (i : S704512x64.Idx) : val_main_call2_v4 (F := Ideal) i = top := by
  rw [val_main_call2_v4_apply, val_main_call2_v3_apply, val_main_c_3_apply, top_eq]
  show (((15#32 : BitVec 32).toInt : ℝ) : EReal) = ((15 : ℝ) : EReal)
  rw [show (15#32 : BitVec 32).toInt = 15 by decide]
  norm_num

/-- A per-row quantity repeated along the row: entry (r, j) reads the row's entry. -/
theorem rep_ix (r : Fin 704512) (j : Fin 64) : idx_main_v13 (ix2 r j) = rowIx r :=
  funext fun a => Fin.ext (by match a with | ⟨0, _⟩ => rfl | ⟨1, _⟩ => rfl)

/-- The reference's replaced weight at entry (172 n + g, j) of the view is the group's replaced weight of member `j`. -/
theorem weight_at (W : (⟨S4096x11008, .f32⟩ : BufTy).Contents (Elt Ideal)) (n : Fin 4096) (g : Fin 172) (j : Fin 64) :
    val_main_v22 (F := Ideal) W (ix2 (grow n g) j)
      = dequant (gmin W n g) (gmax W n g) (W (ix2 n (col g j))) := by
  rw [val_main_v22_apply, val_main_v20_apply, val_main_v18_apply, val_main_call2_v2_apply, val_main_v17_apply,
    val_main_v15_apply, val_main_v14_apply, val_main_v13_apply, val_main_v16_apply, val_main_v19_apply,
    val_main_v21_apply, upper_eq, lower_eq, view_at]
  rw [show idx_main_v16 (ix2 (grow n g) j) = rowIx (grow n g) from rep_ix _ _,
    show idx_main_v19 (ix2 (grow n g) j) = rowIx (grow n g) from rep_ix _ _,
    show idx_main_v21 (ix2 (grow n g) j) = rowIx (grow n g) from rep_ix _ _,
    rep_ix, scale_at, zeroPoint_at]
  rfl

/-- Entry (n, k) of the reference's replaced matrix is the replaced weight. -/
theorem replaced_at (W : (⟨S4096x11008, .f32⟩ : BufTy).Contents (Elt Ideal)) (n : Fin 4096) (k : Fin 11008) :
    val_main_v23 (F := Ideal) W (ix2 n k) = Q W n k := by
  rw [val_main_v23_apply]
  have e : idx_main_v23 (ix2 n k) = ix2 (grow n (grp k)) (place k) := funext fun a => Fin.ext (by
    have hn := n.isLt; have hk := k.isLt
    match a with
    | ⟨0, _⟩ => show (n.val * 11008 + k.val) / 64 = 172 * n.val + k.val / 64; omega
    | ⟨1, _⟩ => show (n.val * 11008 + k.val) % 64 = k.val % 64; omega)
  rw [e, weight_at, col_grp_place]
  rfl

/-- THE REFERENCE'S RESULT is the linear layer over the replaced weights. -/
theorem ref_eq (X : (⟨S1x512x11008, .f32⟩ : BufTy).Contents (Elt Ideal)) (W : (⟨S4096x11008, .f32⟩ : BufTy).Contents (Elt Ideal))
    (B : (⟨S4096, .f32⟩ : BufTy).Contents (Elt Ideal)) :
    val_main_v27 (F := Ideal) X W B = G X W B := by
  funext i
  rw [val_main_v27_apply, val_main_v24_apply, val_main_v26_apply, val_main_v25_apply]
  show (∑ k : Fin 11008, X (lidx_main_v24 i k) * val_main_v23 (F := Ideal) W (ridx_main_v24 i k)) + B (idx_main_v25 (idx_main_v26 i))
    = (∑ k : Fin 11008, X (ix3 (i 0) (i 1) k) * Q W (i 2) k) + B (ix1 (i 2))
  have el : ∀ k : Fin 11008, lidx_main_v24 i k = ix3 (i 0) (i 1) k := fun k =>
    funext fun a => Fin.ext (by match a with | ⟨0, _⟩ => rfl | ⟨1, _⟩ => rfl | ⟨2, _⟩ => rfl)
  have er : ∀ k : Fin 11008, ridx_main_v24 i k = ix2 (i 2) k := fun k =>
    funext fun a => Fin.ext (by match a with | ⟨0, _⟩ => rfl | ⟨1, _⟩ => rfl)
  have eb : idx_main_v25 (idx_main_v26 i) = ix1 (i 2) :=
    funext fun a => Fin.ext (by match a with | ⟨0, _⟩ => rfl)
  rw [eb]
  refine congrArg (· + B (ix1 (i 2))) (Finset.sum_congr rfl fun k _ => ?_)
  rw [el, er]
  exact congrArg (fun z => X (ix3 (i 0) (i 1) k) * z) (replaced_at W (i 2) k)

end Cert.ReferenceIdeal.RefValue

end
-- ==== Proof.BodyTerm.lean ====
/-
  The body's stored block as a term of the three input blocks.

  The body carries a [512, 256] value through 43 trips. Trip k reads columns [256 k, 256 k + 256) of the weight block
  and of x, and replaces the carried value `a` by `step a (weights' stretch) (x's stretch)`; after the last trip the
  bias row is added and the block is stored. So the stored block is `finish (carried 43) bias`, with `carried` the
  plain recursion over the trips.
-/
import proofs.«181352_j43654047597182_2_alg».proof.Proof.Gen.KernelIdeal.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic Idealize.SL.Sem

variable {F : FTy → Type} [FloatOps F]

theorem trips_eq : k0_t1_loop.trips = 43 := by decide +kernel

/-- The stretch of the weight block trip `k` reads: all 256 rows, columns [256 k, 256 k + 256). -/
abbrev wRect (k : Fin k0_t1_loop.trips) : Rect S256x11008 := Rect.unit (s := S256x11008) (k0_off1 k) S256x256.size (k0_off1_inb k)
/-- The stretch of x it reads: all 512 rows, the same columns. -/
abbrev xRect (k : Fin k0_t1_loop.trips) : Rect S512x11008 := Rect.unit (s := S512x11008) (k0_off2 k) S512x256.size (k0_off2_inb k)

/-- One trip's new carried value. -/
theorem trip_eq (c : Dev nD) (i : grid0.Coords) (arg1 : Memref sig .tc .vmem S512x11008 .bf16) (harg1 : arg1.IsWhole)
    (arg2 : Memref sig .tc .vmem S256x11008 .f32) (harg2 : arg2.IsWhole) (arg3 : Memref sig .tc .vmem S1x256 .f32) (harg3 : arg3.IsWhole)
    (arg4 : Memref sig .tc .vmem S512x256 .f32) (harg4 : arg4.IsWhole)
    (x0 : Vec F S512x11008 .bf16) (x1 : Vec F S256x11008 .f32) (k : Fin k0_t1_loop.trips) (acc : FVec F S512x256 .f32) :
    tripR_k0_t1 (F := F) Variants.none c none i arg1 harg1 arg2 harg2 arg3 harg3 arg4 harg4 (harg1.unread x0) (harg2.unread x1) k acc
      = k0_pay2 acc (View.ld x1 (wRect k)) (View.ld x0 (xRect k)) := by
  unfold tripR_k0_t1 trip_k0_t1
  dsimp only
  simp only [View.readAt_eq_ld, harg1.read_unread, harg2.read_unread]

/-- The carried value before trip `n`. -/
def carried (x0 : Vec F S512x11008 .bf16) (x1 : Vec F S256x11008 .f32) : ℕ → FVec F S512x256 .f32
  | 0 => k0_pay1
  | n + 1 => if h : n < k0_t1_loop.trips then k0_pay2 (carried x0 x1 n) (View.ld x1 (wRect ⟨n, h⟩)) (View.ld x0 (xRect ⟨n, h⟩)) else carried x0 x1 n

theorem st_eq (c : Dev nD) (i : grid0.Coords) (arg1 : Memref sig .tc .vmem S512x11008 .bf16) (harg1 : arg1.IsWhole)
    (arg2 : Memref sig .tc .vmem S256x11008 .f32) (harg2 : arg2.IsWhole) (arg3 : Memref sig .tc .vmem S1x256 .f32) (harg3 : arg3.IsWhole)
    (arg4 : Memref sig .tc .vmem S512x256 .f32) (harg4 : arg4.IsWhole)
    (x0 : Vec F S512x11008 .bf16) (x1 : Vec F S256x11008 .f32) (n : ℕ) :
    st_k0_t1 (F := F) Variants.none c none i arg1 harg1 arg2 harg2 arg3 harg3 arg4 harg4 (harg1.unread x0) (harg2.unread x1) k0_pay1 n
      = carried x0 x1 n := by
  induction n with
  | zero => rfl
  | succ n ih =>
    rw [st_k0_t1.eq_2, carried]
    unfold st_k0_t1Step
    by_cases h : n < k0_t1_loop.trips
    · rw [dif_pos h, dif_pos h, ih, trip_eq]
    · rw [dif_neg h, dif_neg h, ih]

/-- The stored block. -/
theorem out_eq (c : Dev nD) (i : grid0.Coords) (arg1 : Memref sig .tc .vmem S512x11008 .bf16) (harg1 : arg1.IsWhole)
    (arg2 : Memref sig .tc .vmem S256x11008 .f32) (harg2 : arg2.IsWhole) (arg3 : Memref sig .tc .vmem S1x256 .f32) (harg3 : arg3.IsWhole)
    (arg4 : Memref sig .tc .vmem S512x256 .f32) (harg4 : arg4.IsWhole)
    (x0 : Vec F S512x11008 .bf16) (x1 : Vec F S256x11008 .f32) (x2 : Vec F S1x256 .f32) :
    out0_A_3 c i arg1 harg1 arg2 harg2 arg3 harg3 arg4 harg4 x0 x1 x2 = k0_pay3 (carried x0 x1 43) x2 := by
  unfold out0_A_3
  rw [View.read_writes_eq_canon _ _ _ (cover0_A_3 c i arg1 harg1 arg2 harg2 arg3 harg3 arg4 harg4 x0 x1 x2)]
  unfold kernelRun0_A
  dsimp only
  rw [View.canon_unit_zero (by funext a; match a with | ⟨0, _⟩ => rfl | ⟨1, _⟩ => rfl)]
  simp only [View.readAt_eq_ld, harg3.read_unread]
  rw [View.ld_unit_zero (S := S1x256) (by funext a; match a with | ⟨0, _⟩ => rfl | ⟨1, _⟩ => rfl)]
  rw [show Scf.trips (0#32) (Scalar.addi 0#32 43#32) 1#32 = 43 from trips_eq, st_eq]

end Cert.KernelIdeal.Body

end
-- ==== Proof.ChunkLayout.lean ====
/-
  The re-arrangements of a stretch of 256 columns, read at an index written by coordinates.

  A [256, 256] stretch (row q, column k) is viewed as [256, 4, 64] (row q, group g, member e) with k = 64 g + e; a
  per-group quantity [256, 4] gets a unit axis [256, 4, 1] and is repeated over the group's 64 members; the bias row
  [1, 256] is repeated down the 512 rows.
-/
import Idealize.ShloMosaic.Lib.Pipeline.Value
import Idealize.ShloMosaic.Lib.ValueIdx

noncomputable section

namespace Cert.Layout

open Idealize.ShloMosaic Idealize.ShloMosaic.ValueIdx

abbrev Flat : Shape := ⟨2, ![256, 256]⟩
abbrev Grouped : Shape := ⟨3, ![256, 4, 64]⟩
abbrev PerGroup : Shape := ⟨2, ![256, 4]⟩
abbrev PerGroup1 : Shape := ⟨3, ![256, 4, 1]⟩
abbrev BiasRow : Shape := ⟨2, ![1, 256]⟩
abbrev OutBlock : Shape := ⟨2, ![512, 256]⟩

/-- Member `e` of group `g` is column `64 g + e` of the stretch. -/
def member (g : Fin 4) (e : Fin 64) : Fin 256 := ⟨64 * g.val + e.val, by have := g.isLt; have := e.isLt; omega⟩
/-- The group of a column of the stretch, and its place in the group. -/
def groupOf (k : Fin 256) : Fin 4 := ⟨k.val / 64, by have := k.isLt; omega⟩
def placeOf (k : Fin 256) : Fin 64 := ⟨k.val % 64, Nat.mod_lt _ (by decide)⟩

theorem member_groupOf_placeOf (k : Fin 256) : member (groupOf k) (placeOf k) = k :=
  Fin.ext (by show 64 * (k.val / 64) + k.val % 64 = k.val; omega)

/-- The grouped view of a flat stretch. -/
theorem cast_flat_grouped {α : Type} (x : Flat.Idx → α) (h : Flat.ShapeCasts Grouped) (q : Fin 256) (g : Fin 4) (e : Fin 64) :
    shapeCast Grouped x h (ix3 q g e) = x (ix2 q (member g e)) :=
  shapeCast_apply x h _ _ (by
    rw [Shape.rowMajor_val_two, Shape.rowMajor_val_three]
    show q.val * 256 + (64 * g.val + e.val) = (q.val * 4 + g.val) * 64 + e.val
    omega)

/-- The flat view of a grouped stretch. -/
theorem cast_grouped_flat {α : Type} (x : Grouped.Idx → α) (h : Grouped.ShapeCasts Flat) (q : Fin 256) (k : Fin 256) :
    shapeCast Flat x h (ix2 q k) = x (ix3 q (groupOf k) (placeOf k)) :=
  shapeCast_apply x h _ _ (by
    rw [Shape.rowMajor_val_two, Shape.rowMajor_val_three]
    show (q.val * 4 + k.val / 64) * 64 + k.val % 64 = q.val * 256 + k.val
    omega)

/-- A per-group quantity given a unit axis. -/
theorem cast_unit {α : Type} (x : PerGroup.Idx → α) (h : PerGroup.ShapeCasts PerGroup1) (q : Fin 256) (g : Fin 4) (z : Fin 1) :
    shapeCast PerGroup1 x h (ix3 q g z) = x (ix2 q g) :=
  shapeCast_apply x h _ _ (by
    rw [Shape.rowMajor_val_two, Shape.rowMajor_val_three]
    show q.val * 4 + g.val = (q.val * 4 + g.val) * 1 + z.val
    have := z.isLt
    omega)

/-- A per-group quantity repeated over the group's members. -/
theorem bcast_group {α : Type} (x : PerGroup1.Idx → α) (h : PerGroup1.Broadcasts Grouped) (q : Fin 256) (g : Fin 4) (e : Fin 64) :
    broadcastTo Grouped x h (ix3 q g e) = x (ix3 q g (0 : Fin 1)) :=
  broadcastTo_apply x h _ _ (fun a => by
    match a with
    | ⟨0, _⟩ => rfl
    | ⟨1, _⟩ => rfl
    | ⟨2, _⟩ => rfl)

/-- The bias row repeated down the rows. -/
theorem bcast_rows {α : Type} (x : BiasRow.Idx → α) (h : BiasRow.Broadcasts OutBlock) (p : Fin 512) (q : Fin 256) :
    broadcastTo OutBlock x h (ix2 p q) = x (ix2 (0 : Fin 1) q) :=
  broadcastTo_apply x h _ _ (fun a => by
    match a with
    | ⟨0, _⟩ => rfl
    | ⟨1, _⟩ => rfl)

end Cert.Layout

end
-- ==== Proof.StepValue.lean ====
/-
  One trip of the body on the extended reals, index by index.

  From a stretch of 256 columns of the weight block the trip forms, per row q and group g of 64 columns, the group's
  minimum and maximum, from them the scale, its reciprocal and the zero point, and replaces each weight of the stretch;
  it then multiplies the x stretch [512, 256] by the replaced stretch [256, 256] along the columns and adds the product
  to the carried value. At (p, q) the new carried value is the old one plus `∑ kk, x p kk · ŵ q kk`.
-/
import proofs.«181352_j43654047597182_2_alg».proof.Proof.Gen.KernelIdeal.Skeleton
import proofs.«181352_j43654047597182_2_alg».proof.Proof.QuantScalar
import proofs.«181352_j43654047597182_2_alg».proof.Proof.ChunkLayout
import Idealize.ShloMosaic.PureOps.Ideal.Laws
import Idealize.ShloMosaic.Lib.ValueIdx
import Idealize.ShloMosaic.Lib.Pipeline.Value

set_option maxRecDepth 16384

noncomputable section

namespace Cert.KernelIdeal.Step

open Cert.KernelIdeal Cert.KernelIdeal.Gen Cert.Layout
open Idealize.ShloMosaic Idealize.ShloMosaic.ValueIdx

/-! ## The product's index maps: out (p, q) takes x (p, kk) and ŵ (q, kk) -/

abbrev D : DotDims S512x256 S256x256 S512x256 := dot_S512x256_S256x256_S512x256_1_1_0_0_n_n

theorem lhs_0 (i : S512x256.Idx) (r : D.contr.Idx) : (D.lhsIdx i r 0).val = (i 0).val := by
  unfold DotDims.lhsIdx
  rw [dif_neg (show ¬(0 : Fin S512x256.rank) ∈ D.lhsBatch by decide), dif_pos (show (0 : Fin S512x256.rank) ∈ D.lhsNonContracting by decide)]
  rfl
theorem lhs_1 (i : S512x256.Idx) (r : D.contr.Idx) : (D.lhsIdx i r 1).val = (r ⟨0, by decide⟩).val :=
  D.lhsIdx_val_of_single rfl i r
theorem rhs_0 (i : S512x256.Idx) (r : D.contr.Idx) : (D.rhsIdx i r 0).val = (i 1).val := by
  unfold DotDims.rhsIdx
  rw [dif_neg (show ¬(0 : Fin S256x256.rank) ∈ D.rhsBatch by decide), dif_pos (show (0 : Fin S256x256.rank) ∈ D.rhsNonContracting by decide)]
  rfl
theorem rhs_1 (i : S512x256.Idx) (r : D.contr.Idx) : (D.rhsIdx i r 1).val = (r ⟨0, by decide⟩).val :=
  D.rhsIdx_val_of_single rfl i r

/-! ## A group's minimum and maximum within a stretch -/

/-- The minimum of group `g` of row `q` of a stretch. -/
def smin (v : Vec Ideal S256x256 .f32) (q : Fin 256) (g : Fin 4) : EReal :=
  (Finset.univ : Finset (Fin 64)).fold min (Ideal.ofBits .f32 0x7F800000#32) (fun e => v (ix2 q (member g e)))
/-- Its maximum. -/
def smax (v : Vec Ideal S256x256 .f32) (q : Fin 256) (g : Fin 4) : EReal :=
  (Finset.univ : Finset (Fin 64)).fold max (Ideal.ofBits .f32 0xFF800000#32) (fun e => v (ix2 q (member g e)))

/-- The replaced weight of the stretch at (q, k). -/
def sdq (v : Vec Ideal S256x256 .f32) (q k : Fin 256) : EReal :=
  Cert.Quant.dequantRecip (smin v q (groupOf k)) (smax v q (groupOf k)) (v (ix2 q k))

theorem lift_eq (h : S256x4x64.Reduces [2] S256x4) (q : Fin 256) (g : Fin 4) (e : Fin 64) : h.lift (ix2 q g) e = ix3 q g e :=
  funext fun a => Fin.ext (by match a with | ⟨0, _⟩ => rfl | ⟨1, _⟩ => rfl | ⟨2, _⟩ => rfl)

theorem min_apply (v : Vec Ideal S256x256 .f32) (h1 : S256x256.ShapeCasts S256x4x64) (h : S256x4x64.Reduces [2] S256x4)
    (hφ : FKind.Formats .f32) (hacc : (0x7F800000#32 : BitVec 32) = FKind.minimumf.neutral .f32 hφ) (q : Fin 256) (g : Fin 4) :
    multiReduction (F := Ideal) .minimumf [2] S256x4 (shapeCast S256x4x64 v h1) 0x7F800000#32 h hφ hacc (ix2 q g) = smin v q g := by
  rw [multiReduction_minimumf_eq_fold, h.fold_filter_drop_single]
  unfold smin
  refine Finset.fold_congr fun e _ => ?_
  exact (congrArg (shapeCast S256x4x64 v h1) (lift_eq h q g e)).trans (cast_flat_grouped v h1 q g e)

theorem max_apply (v : Vec Ideal S256x256 .f32) (h1 : S256x256.ShapeCasts S256x4x64) (h : S256x4x64.Reduces [2] S256x4)
    (hφ : FKind.Formats .f32) (hacc : (0xFF800000#32 : BitVec 32) = FKind.maximumf.neutral .f32 hφ) (q : Fin 256) (g : Fin 4) :
    multiReduction (F := Ideal) .maximumf [2] S256x4 (shapeCast S256x4x64 v h1) 0xFF800000#32 h hφ hacc (ix2 q g) = smax v q g := by
  rw [multiReduction_maximumf_eq_fold, h.fold_filter_drop_single]
  unfold smax
  refine Finset.fold_congr fun e _ => ?_
  exact (congrArg (shapeCast S256x4x64 v h1) (lift_eq h q g e)).trans (cast_flat_grouped v h1 q g e)

/-- The two reductions as the body spells them. -/
theorem min_apply' (v : Vec Ideal S256x256 .f32) (q : Fin 256) (g : Fin 4) :
    multiReduction (F := Ideal) .minimumf [2] S256x4 (shapeCast S256x4x64 v shapeCasts_S256x256_S256x4x64) 0x7F800000#32 reduces_S256x4x64_S256x4 (.inl rfl) rfl (ix2 q g)
      = smin v q g := min_apply v _ _ _ _ q g
theorem max_apply' (v : Vec Ideal S256x256 .f32) (q : Fin 256) (g : Fin 4) :
    multiReduction (F := Ideal) .maximumf [2] S256x4 (shapeCast S256x4x64 v shapeCasts_S256x256_S256x4x64) 0xFF800000#32 reduces_S256x4x64_S256x4 (.inl rfl) rfl (ix2 q g)
      = smax v q g := max_apply v _ _ _ _ q g

/-! ## The trip -/

theorem roundeven_apply {s : Shape} {φ : FTy} (a : FVec Ideal s φ) (i : s.Idx) : roundeven a i = FloatOps.roundeven (a i) := rfl

theorem pay2_apply (acc : FVec Ideal S512x256 .f32) (v11 : Vec Ideal S256x256 .f32) (v13 : Vec Ideal S512x256 .bf16) (p : Fin 512) (q : Fin 256) :
    k0_pay2 acc v11 v13 (ix2 p q) = acc (ix2 p q) + ∑ kk : Fin 256, (v13 (ix2 p kk) : EReal) * sdq v11 q kk := by
  unfold k0_pay2
  dsimp only
  rw [addf_apply]
  congr 1
  simp only [matmul]
  rw [Ideal.matmul_constant_zero_apply, ← Equiv.sum_comp (contrEquiv1 D 256 rfl rfl).symm]
  refine Finset.sum_congr rfl fun kk _ => ?_
  have hk := contrEquiv1_symm_val D 256 rfl rfl kk
  have el : D.lhsIdx (ix2 p q) ((contrEquiv1 D 256 rfl rfl).symm kk) = ix2 p kk := funext fun a => Fin.ext (by
    match a with
    | ⟨0, _⟩ => exact lhs_0 _ _
    | ⟨1, _⟩ => exact (lhs_1 _ _).trans hk)
  have er : D.rhsIdx (ix2 p q) ((contrEquiv1 D 256 rfl rfl).symm kk) = ix2 q kk := funext fun a => Fin.ext (by
    match a with
    | ⟨0, _⟩ => exact rhs_0 _ _
    | ⟨1, _⟩ => exact (rhs_1 _ _).trans hk)
  rw [el, er, shapeCast_self]
  refine congrArg (fun z : EReal => (v13 (ix2 p kk) : EReal) * z) ?_
  simp only [truncf_apply, mulf_apply, subf_apply, minimumf_apply, maximumf_apply, addf_apply, divf_apply, roundeven_apply,
    broadcast_apply, shapeCast_self, cast_grouped_flat, bcast_group, cast_unit]
  rw [max_apply' v11 q (groupOf kk), min_apply' v11 q (groupOf kk)]
  unfold sdq Cert.Quant.dequantRecip Cert.Quant.scale Cert.Quant.rne Cert.Quant.eps Cert.Quant.top Cert.Quant.bot
  rfl

end Cert.KernelIdeal.Step

end
-- ==== Proof.Accum.lean ====
/-
  The carried value in closed form.

  Trip k's stretches are columns 256 k + kk of the weight block and of x. A group of the stretch is a group of the
  block's row (256 is a multiple of 64), so the stretch's replaced weight at (q, kk) is the block's replaced weight at
  (q, 256 k + kk). By induction on the trips the carried value before trip n is, at (p, q), the sum over the stretches
  c < n of `∑ kk, x p (256 c + kk) · q̂ q (256 c + kk)`; after the 43 trips that is the sum over all 11008 columns.
-/
import proofs.«181352_j43654047597182_2_alg».proof.Proof.BodyTerm
import proofs.«181352_j43654047597182_2_alg».proof.Proof.StepValue

set_option maxRecDepth 16384

noncomputable section

namespace Cert.KernelIdeal.Accum

open Cert.KernelIdeal Cert.KernelIdeal.Gen Cert.KernelIdeal.Body Cert.KernelIdeal.Step Cert.Layout Cert.Quant
open Idealize.ShloMosaic Idealize.ShloMosaic.ValueIdx

/-- The stretch a trip works on. -/
def stretch (k : Fin k0_t1_loop.trips) : Fin 43 := ⟨k.val, lt_of_lt_of_le k.isLt (le_of_eq trips_eq)⟩

theorem ld_w_apply (x1 : Vec Ideal S256x11008 .f32) (k : Fin k0_t1_loop.trips) (q kk : Fin 256) :
    View.ld x1 (wRect k) (ix2 q kk) = x1 (ix2 q (scol (stretch k) kk)) := by
  show x1 ((wRect k).emb (ix2 q kk)) = _
  refine congrArg x1 (funext fun a => Fin.ext ?_)
  match a with
  | ⟨0, _⟩ => rw [Rect.emb_apply]; simp [Rect.unit, k0_off1_eq k]
  | ⟨1, _⟩ => rw [Rect.emb_apply]; simp [Rect.unit, k0_off1_eq k, scol, stretch]

theorem ld_x_apply (x0 : Vec Ideal S512x11008 .bf16) (k : Fin k0_t1_loop.trips) (p : Fin 512) (kk : Fin 256) :
    View.ld x0 (xRect k) (ix2 p kk) = x0 (ix2 p (scol (stretch k) kk)) := by
  show x0 ((xRect k).emb (ix2 p kk)) = _
  refine congrArg x0 (funext fun a => Fin.ext ?_)
  match a with
  | ⟨0, _⟩ => rw [Rect.emb_apply]; simp [Rect.unit, k0_off2_eq k]
  | ⟨1, _⟩ => rw [Rect.emb_apply]; simp [Rect.unit, k0_off2_eq k, scol, stretch]

/-- A group of a stretch is a group of the block's row. -/
theorem col_grp_scol (c : Fin 43) (kk : Fin 256) (e : Fin 64) : col (grp (scol c kk)) e = scol c (member (groupOf kk) e) :=
  Fin.ext (by
    show 64 * ((256 * c.val + kk.val) / 64) + e.val = 256 * c.val + (64 * (kk.val / 64) + e.val)
    omega)

/-- The stretch's replaced weight is the block's. -/
theorem sdq_ld (x1 : Vec Ideal S256x11008 .f32) (k : Fin k0_t1_loop.trips) (q kk : Fin 256) :
    sdq (View.ld x1 (wRect k)) q kk = Q (R := 256) x1 q (scol (stretch k) kk) := by
  have member_eq : ∀ e : Fin 64, View.ld x1 (wRect k) (ix2 q (member (groupOf kk) e)) = x1 (ix2 q (col (grp (scol (stretch k) kk)) e)) :=
    fun e => (ld_w_apply x1 k q (member (groupOf kk) e)).trans (congrArg (fun z => x1 (ix2 q z)) (col_grp_scol (stretch k) kk e).symm)
  have lo_eq : smin (View.ld x1 (wRect k)) q (groupOf kk) = gmin x1 q (grp (scol (stretch k) kk)) := by
    unfold smin gmin
    exact Finset.fold_congr fun e _ => member_eq e
  have hi_eq : smax (View.ld x1 (wRect k)) q (groupOf kk) = gmax x1 q (grp (scol (stretch k) kk)) := by
    unfold smax gmax
    exact Finset.fold_congr fun e _ => member_eq e
  unfold sdq Q
  rw [dequantRecip_eq, lo_eq, hi_eq]
  exact congrArg (dequant _ _) (ld_w_apply x1 k q kk)

/-- Stretch `c`'s share of the result at (p, q). -/
def share (x0 : Vec Ideal S512x11008 .bf16) (x1 : Vec Ideal S256x11008 .f32) (p : Fin 512) (q : Fin 256) (c : Fin 43) : EReal :=
  ∑ kk : Fin 256, (x0 (ix2 p (scol c kk)) : EReal) * Q (R := 256) x1 q (scol c kk)

/-- The same over the naturals, zero past the last stretch. -/
def shareN (x0 : Vec Ideal S512x11008 .bf16) (x1 : Vec Ideal S256x11008 .f32) (p : Fin 512) (q : Fin 256) (n : ℕ) : EReal :=
  if h : n < 43 then share x0 x1 p q ⟨n, h⟩ else 0

/-- The carried value before trip `n` is the sum of the shares of the stretches before it. -/
theorem carried_apply (x0 : Vec Ideal S512x11008 .bf16) (x1 : Vec Ideal S256x11008 .f32) (p : Fin 512) (q : Fin 256) (n : ℕ) (hn : n ≤ 43) :
    carried x0 x1 n (ix2 p q) = ∑ c ∈ Finset.range n, shareN x0 x1 p q c := by
  induction n with
  | zero =>
    rw [Finset.range_zero, Finset.sum_empty]
    exact Ideal.ofBits_zero_f32
  | succ n ih =>
    have hn' : n < 43 := by omega
    have ht : n < k0_t1_loop.trips := by rw [trips_eq]; exact hn'
    rw [carried, dif_pos ht, pay2_apply, ih (by omega), Finset.sum_range_succ]
    refine congrArg (fun z : EReal => (∑ c ∈ Finset.range n, shareN x0 x1 p q c) + z) ?_
    unfold shareN
    rw [dif_pos hn']
    unfold share
    refine Finset.sum_congr rfl fun kk _ => ?_
    rw [ld_x_apply, sdq_ld]
    rfl

end Cert.KernelIdeal.Accum

end
-- ==== Proof.KernelPoint.lean ====
/-
  What one grid point of the kernel stores, index by index.

  At a point the body holds the whole `x` (512 rows of 11008), a block of 256 rows of the weight matrix and the
  matching 256 entries of the bias. It walks the 11008 columns in 43 stretches of 256; in each it replaces the
  stretch's weights group by group, multiplies the `x` stretch by them and adds the product to what it carries. What it
  stores at (row p, feature q of the block) is therefore `∑ k, x p k · q̂ q k + bias q`, `q̂` the replaced weights of
  the block's row q: the 43 stretch sums regrouped into one sum over the columns.
-/
import proofs.«181352_j43654047597182_2_alg».proof.Proof.Gen.KernelIdeal.Frame
import proofs.«181352_j43654047597182_2_alg».proof.Proof.QuantScalar
import proofs.«181352_j43654047597182_2_alg».proof.Proof.Accum

set_option maxRecDepth 16384

noncomputable section

namespace Cert.KernelIdeal.Point

open Cert.KernelIdeal Cert.KernelIdeal.Gen Cert.KernelIdeal.Body Cert.KernelIdeal.Accum Cert.Layout Cert.Quant
open Idealize.ShloMosaic Idealize.ShloMosaic.TcCoe Idealize.ShloMosaic.ValueIdx Idealize.SL.Sem

/-- The body's stored block at (p, q), from the three input blocks it was handed. -/
theorem out_apply (c : Dev nD) (i : grid0.Coords) (arg1 : Memref sig .tc .vmem S512x11008 .bf16) (harg1 : arg1.IsWhole)
    (arg2 : Memref sig .tc .vmem S256x11008 .f32) (harg2 : arg2.IsWhole) (arg3 : Memref sig .tc .vmem S1x256 .f32) (harg3 : arg3.IsWhole)
    (arg4 : Memref sig .tc .vmem S512x256 .f32) (harg4 : arg4.IsWhole)
    (x0 : Vec Ideal S512x11008 .bf16) (x1 : Vec Ideal S256x11008 .f32) (x2 : Vec Ideal S1x256 .f32) (p : Fin 512) (q : Fin 256) :
    out0_A_3 (F := Ideal) c i arg1 harg1 arg2 harg2 arg3 harg3 arg4 harg4 x0 x1 x2 (ix2 p q)
      = (∑ k : Fin 11008, (x0 (ix2 p k) : EReal) * Cert.Quant.Q (R := 256) x1 q k) + (x2 (ix2 (0 : Fin 1) q) : EReal) := by
  rw [out_eq]
  unfold k0_pay3
  rw [addf_apply, shapeCast_self, bcast_rows, carried_apply x0 x1 p q 43 le_rfl,
    sum_stretches (fun k => (x0 (ix2 p k) : EReal) * Cert.Quant.Q (R := 256) x1 q k), Finset.sum_range]
  refine congrArg (fun z : EReal => z + (x2 (ix2 (0 : Fin 1) q) : EReal)) ?_
  refine Finset.sum_congr rfl fun c _ => ?_
  unfold shareN
  rw [dif_pos c.isLt]
  rfl

end Cert.KernelIdeal.Point

end
-- ==== Proof.KernelWhole.lean ====
/-
  From what one grid point stores to what the program returns.

  The grid has 16 points. Point t holds the whole of x (512 rows of 11008), rows 256 t … 256 t + 255 of the weight
  matrix and entries 256 t … 256 t + 255 of the bias, and fills columns 256 t … 256 t + 255 of a [512, 4096] array.
  x reaches the grid through a reshape [1, 512, 11008] → [512, 11008] and a change of format that is the identity on
  the extended reals; the bias through a reshape [4096] → [1, 4096]; the filled array is reshaped to [1, 512, 4096]
  after the grid.

  A replaced weight depends only on its own row of the matrix (`Cert.Quant.Q_row`), so row q of point t's block of
  256 rows gives the replaced weights of row 256 t + q of the whole matrix, and what point t stores at (p, q) is the
  layer's result at (0, p, 256 t + q). The 16 column blocks cover the array: column n lies in the block of point
  n / 256. So the array ends holding the layer's result at every index, and the last reshape only renames the indices.
-/
import proofs.«181352_j43654047597182_2_alg».proof.Proof.Gen.KernelIdeal.Frame
import proofs.«181352_j43654047597182_2_alg».proof.Proof.KernelPoint
import proofs.«181352_j43654047597182_2_alg».proof.Proof.QuantScalar
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Where each block sits: the index maps over the 16 points -/

/-- At point t: x's block is block (0, 0); the weight block is row block t; the bias block and the result block are
    column block t; and t is below 16. -/
theorem index_maps : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val ∧ t.val < 16 :=
  (by decide +kernel : ∀ t : Fin grid0.N, _)

/-! ## The arrays the grid starts from -/

/-- x as the grid finds it: the argument with its unit axis dropped (the change of format is the identity). -/
theorem x_at_entry (c : Dev nD) : (V m c main_v1 : S512x11008.Idx → EReal)
    = fun j => (m ((c : Thread nD τ).loc main_arg0) : S1x512x11008.Idx → EReal) (ix3 (0 : Fin 1) (j 0) (j 1)) := by
  show StableHlo.after hostOps0 (fun b => m (c, b)) (Proc.devRef .tc main_v1) = _
  after_results
  funext j
  obtain ⟨a, b, rfl⟩ : ∃ a b, j = ix2 a b := ⟨j 0, j 1, eq_ix2 j⟩
  exact shapeCast_1ab_ab_apply (m (c, Proc.tc.devRef main_arg0)) shapeCasts_S1x512x11008_S512x11008 a b

/-- The bias as the grid finds it: the argument with a unit axis in front. -/
theorem bias_at_entry (c : Dev nD) : (V m c main_v2 : S1x4096.Idx → EReal)
    = fun j => (m ((c : Thread nD τ).loc main_arg2) : S4096.Idx → EReal) (ix1 (j 1)) := by
  show StableHlo.after hostOps0 (fun b => m (c, b)) (Proc.devRef .tc main_v2) = _
  after_results
  funext j
  obtain ⟨u, b, rfl⟩ : ∃ u b, j = ix2 u b := ⟨j 0, j 1, eq_ix2 j⟩
  exact shapeCast_a_1a_apply (m (c, Proc.tc.devRef main_arg2)) shapeCasts_S4096_S1x4096 u b

/-! ## The three input blocks of a point, index by index -/

/-- The x block of any point is the whole of x. -/
theorem x_block (c : Dev nD) (t : Fin cfg0.N) (p : Fin 512) (k : Fin 11008) :
    (iblk m c 0 t : Vec Ideal S512x11008 .bf16) (ix2 p k)
      = (m ((c : Thread nD τ).loc main_arg0) : S1x512x11008.Idx → EReal) (ix3 (0 : Fin 1) p k) := by
  obtain ⟨e00, e01, -⟩ := index_maps t
  unfold iblk
  rw [View.read_apply]
  show V m c main_v1 (((cfg0.win 0).blk t).view.emb (ix2 p k)) = _
  rw [x_at_entry]
  refine congrArg _ (funext fun a => ?_)
  match a with
  | ⟨0, _⟩ => rfl
  | ⟨1, _⟩ => exact Fin.ext (show win0_0.index t (0 : Fin 2) * 512 + 1 * p.val = p.val by omega)
  | ⟨2, _⟩ => exact Fin.ext (show win0_0.index t (1 : Fin 2) * 11008 + 1 * k.val = k.val by omega)

/-- Row q of point t's weight block is row 256 t + q of the weight matrix. -/
theorem weight_block (c : Dev nD) (t : Fin cfg0.N) (q : Fin 256) (k : Fin 11008) (n : Fin 4096) (hn : n.val = 256 * t.val + q.val) :
    (iblk m c 1 t : Vec Ideal S256x11008 .f32) (ix2 q k)
      = (m ((c : Thread nD τ).loc main_arg1) : S4096x11008.Idx → EReal) (ix2 n k) := by
  obtain ⟨-, -, e10, e11, -⟩ := index_maps t
  unfold iblk
  rw [View.read_apply]
  show V m c main_arg1 (((cfg0.win 1).blk t).view.emb (ix2 q k)) = _
  rw [V_main_arg1]
  refine congrArg _ (funext fun a => Fin.ext ?_)
  match a with
  | ⟨0, _⟩ => show win0_1.index t (0 : Fin 2) * 256 + 1 * q.val = n.val; omega
  | ⟨1, _⟩ => show win0_1.index t (1 : Fin 2) * 11008 + 1 * k.val = k.val; omega

/-- Entry q of point t's bias block is entry 256 t + q of the bias. -/
theorem bias_block (c : Dev nD) (t : Fin cfg0.N) (q : Fin 256) (n : Fin 4096) (hn : n.val = 256 * t.val + q.val) :
    (iblk m c 2 t : Vec Ideal S1x256 .f32) (ix2 (0 : Fin 1) q)
      = (m ((c : Thread nD τ).loc main_arg2) : S4096.Idx → EReal) (ix1 n) := by
  obtain ⟨-, -, -, -, e20, e21, -⟩ := index_maps t
  unfold iblk
  rw [View.read_apply]
  show V m c main_v2 (((cfg0.win 2).blk t).view.emb (ix2 (0 : Fin 1) q)) = _
  rw [bias_at_entry]
  refine congrArg _ (funext fun a => ?_)
  match a with
  | ⟨0, _⟩ => exact Fin.ext (show win0_2.index t (1 : Fin 2) * 256 + 1 * q.val = n.val by omega)

/-! ## What a point stores is the layer's result on its columns -/

/-- The layer's result as the [512, 4096] array the grid fills. -/
abbrev layer2 (c : Dev nD) : S512x4096.Idx → EReal := fun j =>
  Cert.Quant.G (m ((c : Thread nD τ).loc main_arg0)) (m ((c : Thread nD τ).loc main_arg1)) (m ((c : Thread nD τ).loc main_arg2))
    (ix3 (0 : Fin 1) (j 0) (j 1))

/-- The layer's result at (0, p, n), written out. -/
theorem G_apply (X : Cert.Quant.SX.Idx → EReal) (W : Cert.Quant.SW.Idx → EReal) (B : Cert.Quant.SB.Idx → EReal) (p : Fin 512) (n : Fin 4096) :
    Cert.Quant.G X W B (ix3 (0 : Fin 1) p n)
      = (∑ k : Fin 11008, X (ix3 (0 : Fin 1) p k) * Cert.Quant.Q W n k) + B (ix1 n) := rfl

/-- What point t leaves at (p, q) of its block is the layer's result at (0, p, 256 t + q): the x block is x, the bias
    entry is the bias's, and the replaced weights of the block's row q are those of the matrix's row 256 t + q, a
    replaced weight depending on its own row only. -/
theorem point_apply (c : Dev nD) (t : Fin cfg0.N) (p : Fin 512) (q : Fin 256) (n : Fin 4096) (hn : n.val = 256 * t.val + q.val) :
    (outsAt0 m c t : Vec Ideal S512x256 .f32) (ix2 p q)
      = Cert.Quant.G (m ((c : Thread nD τ).loc main_arg0)) (m ((c : Thread nD τ).loc main_arg1)) (m ((c : Thread nD τ).loc main_arg2))
          (ix3 (0 : Fin 1) p n) := by
  unfold outsAt0
  refine (Cert.KernelIdeal.Point.out_apply c (grid0.coords t) (ms0_0 t) (hs0_0 t) (ms0_1 t) (hs0_1 t) (ms0_2 t) (hs0_2 t)
    (ms0_3 t) (hs0_3 t) (iblk m c 0 t) (iblk m c 1 t) (iblk m c 2 t) p q).trans ?_
  refine Eq.trans ?_ (G_apply _ _ _ p n).symm
  refine congrArg₂ (· + ·) (Finset.sum_congr rfl fun k _ => congrArg₂ (· * ·) (x_block m c t p k) ?_) (bias_block m c t q n hn)
  exact Cert.Quant.Q_row _ _ q n (fun k' => weight_block m c t q k' n hn) k

/-- What point t writes back is its block of the layer's result. -/
theorem written_back (c : Dev nD) (t : Fin cfg0.N) :
    (dats m 0 c).flushed 3 t = ((cfg0.win 3).blk t).view.read (Elt Ideal) (layer2 m c) := by
  show (cfg0.win 3).cut (grid0.coords t) ((dats m 0 c).after 3 t) = _
  rw [after0_3]
  obtain ⟨-, -, -, -, -, -, e30, e31, ht⟩ := index_maps t
  funext y
  have hy0 : (y 0).val < 512 := (y 0).isLt
  have hy1 : (y 1).val < 256 := (y 1).isLt
  refine (congrArg (outsAt0 m c t) (eq_ix2 (n0 := 512) (n1 := 256) y)).trans ?_
  refine (point_apply m c t (y 0) (y 1) ⟨256 * t.val + (y 1).val, by omega⟩ rfl).trans ?_
  show _ = Cert.Quant.G _ _ _ (ix3 (0 : Fin 1) ((((cfg0.win 3).blk t).view.emb y) 0) ((((cfg0.win 3).blk t).view.emb y) 1))
  refine congrArg _ (funext fun a => ?_)
  match a with
  | ⟨0, _⟩ => rfl
  | ⟨1, _⟩ => exact Fin.ext (show (y 0).val = win0_3.index t (0 : Fin 2) * 512 + 1 * (y 0).val by omega)
  | ⟨2, _⟩ => exact Fin.ext (show 256 * t.val + (y 1).val = win0_3.index t (1 : Fin 2) * 256 + 1 * (y 1).val by omega)

/-! ## The 16 column blocks cover the array -/

/-- An index of the array is in point t's block iff each coordinate is in the block's range on its axis. -/
theorem mem_block (t : Fin cfg0.N) (i : S512x4096.Idx) :
    i ∈ ((cfg0.win 3).blk t).view.set ↔ ∀ a : Fin 2, win0_3.index t a * S512x256.size a ≤ (i a).val
      ∧ (i a).val < win0_3.index t a * S512x256.size a + S512x256.size a := by
  show i ∈ ((View.whole main_v3).slice (win0_3.rect t)).set ↔ _
  rw [View.set_slice_whole, Rect.mem_set_unit]
  exact Iff.rfl

/-- Column n of the array lies in the block of point n / 256. -/
theorem covered (i : S512x4096.Idx) : ∃ t : Fin cfg0.N, (cfg0.win 3).flush t = true ∧ i ∈ ((cfg0.win 3).blk t).view.set := by
  have hi0 : (i 0).val < 512 := (i 0).isLt
  have hi1 : (i 1).val < 4096 := (i 1).isLt
  obtain ⟨t, ht⟩ : ∃ t : Fin cfg0.N, t.val = (i 1).val / 256 := ⟨⟨(i 1).val / 256, by rw [show cfg0.N = 16 from N_0]; omega⟩, rfl⟩
  obtain ⟨-, -, -, -, -, -, e30, e31, -⟩ := index_maps t
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 256 ≤ (i 1).val ∧ (i 1).val < win0_3.index t (1 : Fin 2) * 256 + 256; omega

/-- So after the 16 points the [512, 4096] array holds the layer's result at every index. -/
theorem filled (c : Dev nD) : (dats m 0 c).arrAt 3 cfg0.N = layer2 m c :=
  (dats m 0 c).arrAt_eq_of_cover 3 (layer2 m c) (fun t _ => written_back m c t) covered

/-! ## The reshape after the grid, and the run -/

/-- The result buffer: the filled array with a unit axis in front, which is the layer's result. -/
theorem result (c : Dev nD) :
    Pipeline.afterTail₀ cfgs (dats m) 0 (V0 m) [hostOps1] c main_v4
      = Cert.Quant.G (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = layer2 m c := (Pipeline.withArrays_arr spec0 launch0.win.arr_inj c _ _ 3).trans (filled m c)
  funext i
  obtain ⟨u, p, n, rfl⟩ : ∃ (u : Fin 1) (p : Fin 512) (n : Fin 4096), i = ix3 u p n :=
    ⟨i 0, i 1, i 2, eq_ix3 (n0 := 1) (n1 := 512) (n2 := 4096) i⟩
  refine (shapeCast_ab_1ab_apply _ shapeCasts_S512x4096_S1x512x4096 u p n).trans ?_
  refine (congrFun hw (ix2 p n)).trans ?_
  obtain rfl : u = 0 := Subsingleton.elim _ _
  rfl

/-- THE KERNEL'S RUN: every execution terminates with the result buffer at the linear layer over the replaced weights
    (`Cert.Quant.G` of the three arguments) and the arguments unchanged. -/
theorem run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v4)
        = Cert.Quant.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run defs _ _).mono (fun r h c =>
    ⟨((h c).2 main_v4 (Pipeline.mem_restRefs_of main_v4 (by decide) (by decide))).trans (result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Whole

end
-- ==== Proof.Claims.lean ====
/-
  The five claims.

  The three programs' frames are the generated ones (the reference's is its generated run with the result dropped);
  no rewrite separates the kernel from its idealization; and on the extended reals both idealized programs end with
  the linear layer over the group-wise replaced weights, `Cert.Quant.G`, of their argument arrays — the kernel by its
  whole run, the reference because its composed term is that function — so from memories that agree on the arguments
  the two results are one array.
-/
import proofs.«181352_j43654047597182_2_alg».proof.Defs
import proofs.«181352_j43654047597182_2_alg».proof.Proof.Gen.Kernel.Frame
import proofs.«181352_j43654047597182_2_alg».proof.Proof.Gen.KernelIdeal.Frame
import proofs.«181352_j43654047597182_2_alg».proof.Proof.Gen.ReferenceIdeal.Run
import proofs.«181352_j43654047597182_2_alg».proof.Proof.Gen.ReferenceIdeal.Read
import proofs.«181352_j43654047597182_2_alg».proof.Proof.Gen.Pre_finite_inputs
import proofs.«181352_j43654047597182_2_alg».proof.Proof.RefValue
import proofs.«181352_j43654047597182_2_alg».proof.Proof.KernelWhole

noncomputable section

open Idealize.ShloMosaic Idealize.ShloMosaic.TcCoe Idealize.SL.Sem

namespace Cert.Proof.Claims

/-- The kernel as printed runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: there is no rewrite to account for. -/
theorem preserves : Cert.preserves_Kernel_KernelIdeal := trivial

/-- Both idealized programs end with the linear layer over the replaced weights of their arguments; the memories agree
    on the arguments, so the results are equal. -/
theorem algebraic : Cert.algebraic_KernelIdeal_ReferenceIdeal := by
  intro m ρ m' ρ' _ hagree
  refine ⟨fun c => Cert.Quant.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.ref_eq, (hagree c).1, (hagree c).2.1, (hagree c).2.2]

end Cert.Proof.Claims

end
-- ==== Proof.lean ====
/- The proof of `Cert.Claim`: a linear layer over a group-wise fake-quantized weight, computed two ways.

   Both programs compute, on the extended reals, `out[r, n] = ∑ k, x[r, k] · q̂[n, k] + bias[n]`, where a row of 11008
   weights is cut into 172 groups of 64 columns and a weight `w` of a group with minimum `lo` and maximum `hi` is replaced
   by `q̂ = (clip (rne (w / s) + z) 0 15 - z) · s`, `s = max (hi - lo) ε / 15`, `z = rne (-lo / s)` (Proof/QuantScalar.lean:
   the function `G`). The reference divides by `s` and takes one product over all 11008 columns; the kernel takes the
   reciprocal of `s` once and multiplies by it, and adds up the product over 43 stretches of 256 columns, 256 output
   features at a grid point. The two agree because `s` is never zero (so the product with `1 / s` is the quotient by `s`
   on every extended real) and because a sum may be regrouped; neither needs the inputs finite.

   Proof/RefValue.lean reads the reference's run index by index and finds `G`. On the kernel's side Proof/BodyTerm.lean
   writes what a grid point stores as a term of its input blocks, the carried value a recursion over the trips;
   Proof/StepValue.lean reads one trip at an index (Proof/ChunkLayout.lean: the re-arrangements of a stretch);
   Proof/Accum.lean puts the carried value in closed form; Proof/KernelPoint.lean regroups the 43 stretch sums;
   Proof/KernelWhole.lean assembles the 16 blocks into the result array, through the host operations before and after the
   region. Proof/Claims.lean states the five conjuncts: the three frames (the two kernels' generated ones, the reference's
   its generated run), `preserves` (the idealization rewrote nothing) and `algebraic`. -/
import proofs.«181352_j43654047597182_2_alg».proof.Defs
import proofs.«181352_j43654047597182_2_alg».proof.Proof.Gen.Kernel
import proofs.«181352_j43654047597182_2_alg».proof.Proof.Gen.Kernel.Skeleton
import proofs.«181352_j43654047597182_2_alg».proof.Proof.Gen.Kernel.Loops
import proofs.«181352_j43654047597182_2_alg».proof.Proof.Gen.Kernel.Launch
import proofs.«181352_j43654047597182_2_alg».proof.Proof.Gen.Kernel.Points
import proofs.«181352_j43654047597182_2_alg».proof.Proof.Gen.Kernel.Frame
import proofs.«181352_j43654047597182_2_alg».proof.Proof.Gen.KernelIdeal
import proofs.«181352_j43654047597182_2_alg».proof.Proof.Gen.KernelIdeal.Skeleton
import proofs.«181352_j43654047597182_2_alg».proof.Proof.Gen.KernelIdeal.Loops
import proofs.«181352_j43654047597182_2_alg».proof.Proof.Gen.KernelIdeal.Launch
import proofs.«181352_j43654047597182_2_alg».proof.Proof.Gen.KernelIdeal.Points
import proofs.«181352_j43654047597182_2_alg».proof.Proof.Gen.KernelIdeal.Frame
import proofs.«181352_j43654047597182_2_alg».proof.Proof.Gen.ReferenceIdeal
import proofs.«181352_j43654047597182_2_alg».proof.Proof.Gen.Pre_finite_inputs
import proofs.«181352_j43654047597182_2_alg».proof.Proof.Gen.ReferenceIdeal.Run
import proofs.«181352_j43654047597182_2_alg».proof.Proof.Gen.ReferenceIdeal.Read
import proofs.«181352_j43654047597182_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
